-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096 .f32) (main_arg5 : FVec F S4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S_ : Shape := ⟨0, ![]⟩
abbrev S128x4096 : Shape := ⟨2, ![128, 4096]⟩
abbrev S1x4096 : Shape := ⟨2, ![1, 4096]⟩

abbrev nBuf : Space → Nat
  | .hbm => 29
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S4096, .f32⟩
  | .local _ .vmem, ⟨9, _⟩ => ⟨S4096, .f32⟩
  | .local _ .vmem, ⟨10, _⟩ => ⟨S4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S4096 : S_.BroadcastsInDim S4096 (![] : Fin 0 → Fin S4096.rank)
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  broadcasts_S1x4096_S128x4096 : S1x4096.Broadcasts S128x4096
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .f32 = 32 ∨ (Rect.block (s := S4096x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .f32 = 32 ∨ (Rect.block (s := S4096x4096) S128x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .f32 = 32 ∨ (Rect.block (s := S4096x4096) S128x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x4096.size a ≤ S4096x4096.size a
  hwx0_9 : ∀ i : grid0.Coords, EltTy.bits .f32 = 32 ∨ (Rect.block (s := S4096x4096) S128x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x4096.size a ≤ S4096x4096.size a
  hwx0_10 : ∀ i : grid0.Coords, EltTy.bits .f32 = 32 ∨ (Rect.block (s := S4096x4096) S128x4096.size (cc0_transform_10 i) (hinb0_10 i)).WholeWords (EltTy.packing .f32)

variable [Facts₀]

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S128x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S128x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_2) S128x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_3) S128x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096, .f32⟩
  | .hbm, ⟨57, _⟩ => ⟨S1x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .i1⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)

variable [Facts₀]

class Facts : Prop extends Facts₀ where

variable [Facts]
-- ==== Proof.Dynamics.lean ====
/-
  One step of a layer of resonate-and-fire neurons, entry by entry.

  A layer has 4096 channels (the columns); each of its 4096 rows is one sample. Every entry carries a membrane
  potential `u`, an oscillation value `v` and a refractory value `q`, and receives an input `x`; every channel
  carries an angular frequency `ω ≥ 0`, a damping `p` and a threshold `θ ≥ 0`. With the time step `dt`
  (the single-precision number nearest 1/24000) and the refractory decay (the one nearest 9/10), one step is

      b  = p − q
      u' = ((u + (b·u)·dt) − (ω·v)·dt) + x·dt
      v' = (v + (ω·u)·dt) + (b·v)·dt
      z  = 1 if (|u'| − θ) − q > 0, else 0
      q' = q·decay + z

  with the sums and products grouped exactly as written. This file states these five formulas once, over any
  float instance, for one entry and for whole arrays (an entry reads its row-and-column entry of the matrices and
  its column's entry of the channel vectors), and proves the two facts about the extended reals that let two
  spellings of `z` meet: the absolute value computed on the host is the one computed in a kernel, and a one-bit
  flag read as an unsigned number is the same flag widened to 32 bits and read as a signed number.
-/
import Idealize.ShloMosaic.PureOps.Ideal
import Idealize.ShloMosaic.Lib.ValueIdx

noncomputable section

namespace Cert.Resonator

open Idealize.ShloMosaic

variable {F : FTy → Type} [FloatOps F]

/-! ## One entry -/

/-- The time step: the single-precision number nearest `1/24000`, by its binary word. -/
abbrev dt : F .f32 := FloatOps.ofBits .f32 0x382EC33E#32

/-- The refractory decay: the single-precision number nearest `9/10`, by its binary word. -/
abbrev decay : F .f32 := FloatOps.ofBits .f32 0x3F666666#32

/-- The new membrane potential `((u + ((p − q)·u)·dt) − (ω·v)·dt) + x·dt`. -/
def potential (x u v q ω p : F .f32) : F .f32 :=
  FloatOps.addf
    (FloatOps.subf (FloatOps.addf u (FloatOps.mulf (FloatOps.mulf (FloatOps.subf p q) u) dt))
      (FloatOps.mulf (FloatOps.mulf ω v) dt))
    (FloatOps.mulf x dt)

/-- The new oscillation value `(v + (ω·u)·dt) + ((p − q)·v)·dt`: it uses the OLD potential `u`. -/
def oscillation (u v q ω p : F .f32) : F .f32 :=
  FloatOps.addf (FloatOps.addf v (FloatOps.mulf (FloatOps.mulf ω u) dt))
    (FloatOps.mulf (FloatOps.mulf (FloatOps.subf p q) v) dt)

/-- Whether the entry fires, as one bit: `(|u'| − θ) − q > 0` for the new potential `u'`. -/
def fires (x u v q ω p θ : F .f32) : BitVec 1 :=
  FloatOps.cmpf .ogt
    (FloatOps.subf (FloatOps.subf (FloatOps.hostAbsf (potential x u v q ω p)) θ) q)
    (FloatOps.ofBits .f32 0x00000000#32)

/-- The spike `z`: the firing bit read as the number 1 or 0. -/
def spike (x u v q ω p θ : F .f32) : F .f32 := FloatOps.uitofp .f32 (fires x u v q ω p θ)

/-- The new refractory value `q·decay + z`. -/
def refractory (x u v q ω p θ : F .f32) : F .f32 :=
  FloatOps.addf (FloatOps.mulf q decay) (spike x u v q ω p θ)

/-! ## Whole arrays -/

/-- A matrix of the layer: 4096 samples by 4096 channels. -/
abbrev Mat : Shape := ⟨2, ![4096, 4096]⟩
/-- A vector with one entry per channel. -/
abbrev Chan : Shape := ⟨1, ![4096]⟩

/-- The channel of a matrix entry: its column. -/
abbrev chan (i : Mat.Idx) : Chan.Idx := fun a => match a with
  | ⟨0, _⟩ => ⟨(i 1).val, (i 1).isLt⟩

/-- The new potentials, entry by entry. -/
def potentialArr (x u v q : Mat.Idx → Elt F .f32) (ω p : Chan.Idx → Elt F .f32) : Mat.Idx → Elt F .f32 :=
  fun i => potential (x i) (u i) (v i) (q i) (ω (chan i)) (p (chan i))

/-- The new oscillation values, entry by entry. -/
def oscillationArr (u v q : Mat.Idx → Elt F .f32) (ω p : Chan.Idx → Elt F .f32) : Mat.Idx → Elt F .f32 :=
  fun i => oscillation (u i) (v i) (q i) (ω (chan i)) (p (chan i))

/-- The spikes, entry by entry. -/
def spikeArr (x u v q : Mat.Idx → Elt F .f32) (ω p θ : Chan.Idx → Elt F .f32) : Mat.Idx → Elt F .f32 :=
  fun i => spike (x i) (u i) (v i) (q i) (ω (chan i)) (p (chan i)) (θ (chan i))

/-- The new refractory values, entry by entry. -/
def refractoryArr (x u v q : Mat.Idx → Elt F .f32) (ω p θ : Chan.Idx → Elt F .f32) : Mat.Idx → Elt F .f32 :=
  fun i => refractory (x i) (u i) (v i) (q i) (ω (chan i)) (p (chan i)) (θ (chan i))

/-! ## Two spellings of the spike, on the extended reals -/

/-- A one-bit flag widened with zeros to 32 bits and read as a SIGNED integer is the flag read as an unsigned one:
    the widened word is 0 or 1, far below the sign bit. -/
theorem toInt_widen (b : BitVec 1) : (b.setWidth 32).toInt = (b.toNat : Int) := by
  have hb : b.toNat < 2 := b.isLt
  have h1 : (b.setWidth 32).toNat = b.toNat := by
    rw [BitVec.toNat_setWidth]; omega
  rw [BitVec.toInt_eq_toNat_cond, h1]
  split <;> omega

/-- So on the extended reals the signed reading of the widened flag is the unsigned reading of the flag. -/
theorem sitofp_widen (b : BitVec 1) :
    FloatOps.sitofp (F := Ideal) .f32 (b.setWidth 32) = FloatOps.uitofp (F := Ideal) .f32 b := by
  show (((b.setWidth 32).toInt : ℝ) : EReal) = ((b.toNat : ℝ) : EReal)
  rw [toInt_widen]
  norm_cast

/-- With the kernel's absolute value in place of the host's, and the widened signed reading in place of the
    unsigned one, the spike on the extended reals is the same number. -/
theorem spike_kernel_form (x u v q ω p θ : Ideal .f32) :
    FloatOps.sitofp (F := Ideal) .f32
      ((FloatOps.cmpf (F := Ideal) .ogt
        (FloatOps.subf (FloatOps.subf (FloatOps.absf (potential x u v q ω p)) θ) q)
        (FloatOps.ofBits .f32 0x00000000#32)).setWidth 32)
    = spike x u v q ω p θ := by
  rw [sitofp_widen]
  rfl

end Cert.Resonator

end
-- ==== Proof.BodyValue.lean ====
/-
  What the kernel's body leaves in each of its four output blocks, entry by entry.

  At a grid point the body holds a block of 128 rows (all 4096 columns) of each of the matrices `x`, `u`, `v`, `q`
  and the three channel vectors whole. It lays each channel vector out as one row, repeats that row down the 128
  rows of the block, and then works entry by entry. So the value it stores at row `r`, column `k` of a block depends
  only on the four matrix entries at `(r, k)` and on the three channel entries at `k`: it is the step of
  `Cert.Resonator` at that entry. For the potential and the oscillation value this holds over any float instance;
  for the spike and the refractory value it holds on the extended reals, where the kernel's spelling of the spike
  (its own absolute value; the firing bit widened to 32 bits and read as a signed integer) is the host's.
-/
import proofs.«170079_j14121852470206_2_alg».proof.Proof.Gen.KernelIdeal.Frame
import proofs.«170079_j14121852470206_2_alg».proof.Proof.Dynamics
import Idealize.ShloMosaic.Lib.Pipeline.Value
import Idealize.ShloMosaic.Lib.ValueIdx

noncomputable section

namespace Cert.KernelIdeal.Body

open Cert.KernelIdeal Cert.KernelIdeal.Gen Cert.Resonator
open Idealize.ShloMosaic Idealize.ShloMosaic.TcCoe

variable {F : FTy → Type} [FloatOps F]

/-! ## A channel vector repeated down the rows of a block -/

/-- The column of a block entry, as an index of a channel vector. -/
abbrev col (y : S128x4096.Idx) : S4096.Idx := fun a => match a with
  | ⟨0, _⟩ => ⟨(y 1).val, (y 1).isLt⟩

/-- A channel vector as the body spreads it over a block: laid out as ONE row, the row repeated 128 times. -/
abbrev rows (P : Vec F S4096 .f32) : FVec F S128x4096 .f32 :=
  broadcastTo S128x4096 (shapeCast S1x4096 (shapeCast S4096 P shapeCasts_S4096_S4096) shapeCasts_S4096_S1x4096)
    broadcasts_S1x4096_S128x4096

/-- Read at an entry, the spread vector is the vector at the entry's column: the repetition forgets the row, and
    the one-row layout keeps the position along the row. -/
theorem rows_apply (P : Vec F S4096 .f32) (y : S128x4096.Idx) : rows P y = P (col y) := by
  have hy1 : (y 1).val < 4096 := (y 1).isLt
  refine (broadcastTo_apply _ _ y
    (fun a => match a with | ⟨0, _⟩ => ⟨0, Nat.one_pos⟩ | ⟨1, _⟩ => ⟨(y 1).val, hy1⟩ : S1x4096.Idx)
    (fun a => match a with
      | ⟨0, _⟩ => by show 0 = (if (1 : Nat) = 1 then 0 else (y 0).val); rw [if_pos rfl]
      | ⟨1, _⟩ => by show (y 1).val = (if (4096 : Nat) = 1 then 0 else (y 1).val); rw [if_neg (by decide)])).trans ?_
  refine (shapeCast_apply _ _ _ (col y) (by
    rw [Shape.rowMajor_val_one, Shape.rowMajor_val_two]
    show (y 1).val = 0 * 4096 + (y 1).val
    omega)).trans ?_
  rw [shapeCast_self]

/-! ## The body's values at an entry -/

/-- The value stored as the new potential, at an entry. -/
theorem potential_apply (ω p : Vec F S4096 .f32) (x u v q : Vec F S128x4096 .f32) (y : S128x4096.Idx) :
    k0_pay5 ω p x u v q y = potential (x y) (u y) (v y) (q y) (ω (col y)) (p (col y)) := by
  show FloatOps.addf
      (FloatOps.subf (FloatOps.addf (u y) (FloatOps.mulf (FloatOps.mulf (FloatOps.subf (rows p y) (q y)) (u y)) dt))
        (FloatOps.mulf (FloatOps.mulf (rows ω y) (v y)) dt))
      (FloatOps.mulf (x y) dt) = _
  rw [rows_apply, rows_apply]
  rfl

/-- The value stored as the new oscillation value, at an entry. -/
theorem oscillation_apply (ω p : Vec F S4096 .f32) (u v q : Vec F S128x4096 .f32) (y : S128x4096.Idx) :
    k0_pay6 ω p u v q y = oscillation (u y) (v y) (q y) (ω (col y)) (p (col y)) := by
  show FloatOps.addf (FloatOps.addf (v y) (FloatOps.mulf (FloatOps.mulf (rows ω y) (u y)) dt))
      (FloatOps.mulf (FloatOps.mulf (FloatOps.subf (rows p y) (q y)) (v y)) dt) = _
  rw [rows_apply, rows_apply]
  rfl

/-- The value stored as the spike, at an entry, on the extended reals. -/
theorem spike_apply (ω p θ : Vec Ideal S4096 .f32) (x u v q : Vec Ideal S128x4096 .f32) (y : S128x4096.Idx) :
    k0_pay1 (F := Ideal) (k0_pay7 ω p θ x u v q) y
      = spike (F := Ideal) (x y) (u y) (v y) (q y) (ω (col y)) (p (col y)) (θ (col y)) := by
  show FloatOps.sitofp (F := Ideal) .f32
      ((FloatOps.cmpf (F := Ideal) .ogt
        (FloatOps.subf (FloatOps.subf (FloatOps.absf (k0_pay5 ω p x u v q y)) (rows θ y)) (q y))
        (FloatOps.ofBits .f32 0x00000000#32)).setWidth 32) = _
  rw [potential_apply, rows_apply]
  exact spike_kernel_form _ _ _ _ _ _ _

/-- The value stored as the new refractory value, at an entry, on the extended reals. -/
theorem refractory_apply (ω p θ : Vec Ideal S4096 .f32) (x u v q : Vec Ideal S128x4096 .f32) (y : S128x4096.Idx) :
    k0_pay2 (F := Ideal) q (k0_pay7 ω p θ x u v q) y
      = refractory (F := Ideal) (x y) (u y) (v y) (q y) (ω (col y)) (p (col y)) (θ (col y)) := by
  show FloatOps.addf (FloatOps.mulf (q y) decay) (k0_pay1 (F := Ideal) (k0_pay7 ω p θ x u v q) y) = _
  rw [spike_apply]
  rfl

/-! ## The four output blocks after the body -/

theorem zero1 : (![0] : Fin 1 → Nat) = fun _ => 0 := funext fun a => by fin_cases a; rfl
theorem zero2 : (![0, 0] : Fin 2 → Nat) = fun _ => 0 := funext fun a => by fin_cases a <;> rfl

/-- The block of new potentials: the body's one store covers the block, and its loads read the input blocks whole. -/
theorem potential_block (x u v q : Vec F S128x4096 .f32) (ω p θ : Vec F S4096 .f32) (y : S128x4096.Idx) :
    out0_8 x u v q ω p θ y = potential (x y) (u y) (v y) (q y) (ω (col y)) (p (col y)) := by
  unfold out0_8
  rw [View.canon_unit_zero zero2]
  simp only [View.ld_unit_zero (S := S128x4096) zero2, View.ld_unit_zero (S := S4096) zero1]
  exact potential_apply ω p x u v q y

/-- The block of new oscillation values. -/
theorem oscillation_block (x u v q : Vec F S128x4096 .f32) (ω p θ : Vec F S4096 .f32) (y : S128x4096.Idx) :
    out0_9 x u v q ω p θ y = oscillation (u y) (v y) (q y) (ω (col y)) (p (col y)) := by
  unfold out0_9
  rw [View.canon_unit_zero zero2]
  simp only [View.ld_unit_zero (S := S128x4096) zero2, View.ld_unit_zero (S := S4096) zero1]
  exact oscillation_apply ω p u v q y

/-- The block of spikes, on the extended reals. -/
theorem spike_block (x u v q : Vec Ideal S128x4096 .f32) (ω p θ : Vec Ideal S4096 .f32) (y : S128x4096.Idx) :
    out0_7 (F := Ideal) x u v q ω p θ y = spike (F := Ideal) (x y) (u y) (v y) (q y) (ω (col y)) (p (col y)) (θ (col y)) := by
  unfold out0_7
  rw [View.canon_unit_zero zero2]
  simp only [View.ld_unit_zero (S := S128x4096) zero2, View.ld_unit_zero (S := S4096) zero1]
  exact spike_apply ω p θ x u v q y

/-- The block of new refractory values, on the extended reals. -/
theorem refractory_block (x u v q : Vec Ideal S128x4096 .f32) (ω p θ : Vec Ideal S4096 .f32) (y : S128x4096.Idx) :
    out0_10 (F := Ideal) x u v q ω p θ y
      = refractory (F := Ideal) (x y) (u y) (v y) (q y) (ω (col y)) (p (col y)) (θ (col y)) := by
  unfold out0_10
  rw [View.canon_unit_zero zero2]
  simp only [View.ld_unit_zero (S := S128x4096) zero2, View.ld_unit_zero (S := S4096) zero1]
  exact refractory_apply ω p θ x u v q y

end Cert.KernelIdeal.Body

end
-- ==== Proof.Blocks.lean ====
/-
  From the kernel's blocks to its four result arrays.

  The kernel walks 32 grid points. At point `t` every matrix window (the four inputs `x`, `u`, `v`, `q` and the four
  results) holds rows `128·t … 128·t + 127`, all 4096 columns, of its array, and every channel window holds its whole
  vector. So entry `(r, k)` of the block at point `t` sits at `(128·t + r, k)` in each matrix, its column `k` is its
  channel, and by the body's entrywise values (the module on the body) what point `t` writes back is block `t` of
  ONE array: the step of `Cert.Resonator` applied to the arrays as the kernel finds them. The 32 blocks tile each
  result (row `r` is in block `r / 128`), so each result array ends as that whole array. The run at the end collects
  this for the four results, with the seven arguments unchanged. All of it is on the extended reals.
-/
import proofs.«170079_j14121852470206_2_alg».proof.Proof.BodyValue
import Idealize.ShloMosaic.Lib.Pipeline.Value

set_option maxRecDepth 16384

noncomputable section

namespace Cert.KernelIdeal.Arrays

open Cert.KernelIdeal Cert.KernelIdeal.Gen Cert.KernelIdeal.Body Cert.Resonator
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Where a block entry sits -/

/-- The printed index maps, decided over the 32 grid points: at point `t` every matrix window is at block row `t`
    (and the only block column), every channel window at its only block. -/
theorem index_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0
    ∧ win0_10.index t (0 : Fin 2) = t.val
    ∧ win0_10.index t (1 : Fin 2) = 0
    ∧ win0_4.index t (0 : Fin 1) = 0
    ∧ win0_5.index t (0 : Fin 1) = 0
    ∧ win0_6.index t (0 : Fin 1) = 0 :=
  (by decide +kernel : ∀ t : Fin grid0.N, _)

/-- Where entry `j` of the block at grid point `t` sits in a matrix: row `128·t + j₀`, column `j₁`. -/
def pos (t : Fin cfg0.N) (j : S128x4096.Idx) : S4096x4096.Idx := fun a => match a with
  | ⟨0, _⟩ => ⟨t.val * 128 + (j 0).val, by
      have hj : (j 0).val < 128 := (j 0).isLt
      have ht : t.val < cfg0.N := t.isLt
      have hN : cfg0.N = 32 := N_0
      show t.val * 128 + (j 0).val < 4096
      omega⟩
  | ⟨1, _⟩ => ⟨(j 1).val, (j 1).isLt⟩

/-- Entry `j` of window 0's block at point `t` sits at `pos t j` of its array. -/
theorem emb0 (t : Fin cfg0.N) (j : S128x4096.Idx) : ((cfg0.win 0).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_0.index t (0 : Fin 2) * 128 + 1 * (j 0).val = t.val * 128 + (j 0).val; omega
  | ⟨1, _⟩ => show win0_0.index t (1 : Fin 2) * 4096 + 1 * (j 1).val = (j 1).val; omega

/-- Entry `j` of window 1's block at point `t` sits at `pos t j` of its array. -/
theorem emb1 (t : Fin cfg0.N) (j : S128x4096.Idx) : ((cfg0.win 1).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_1.index t (0 : Fin 2) * 128 + 1 * (j 0).val = t.val * 128 + (j 0).val; omega
  | ⟨1, _⟩ => show win0_1.index t (1 : Fin 2) * 4096 + 1 * (j 1).val = (j 1).val; omega

/-- Entry `j` of window 2's block at point `t` sits at `pos t j` of its array. -/
theorem emb2 (t : Fin cfg0.N) (j : S128x4096.Idx) : ((cfg0.win 2).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_2.index t (0 : Fin 2) * 128 + 1 * (j 0).val = t.val * 128 + (j 0).val; omega
  | ⟨1, _⟩ => show win0_2.index t (1 : Fin 2) * 4096 + 1 * (j 1).val = (j 1).val; omega

/-- Entry `j` of window 3's block at point `t` sits at `pos t j` of its array. -/
theorem emb3 (t : Fin cfg0.N) (j : S128x4096.Idx) : ((cfg0.win 3).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_3.index t (0 : Fin 2) * 128 + 1 * (j 0).val = t.val * 128 + (j 0).val; omega
  | ⟨1, _⟩ => show win0_3.index t (1 : Fin 2) * 4096 + 1 * (j 1).val = (j 1).val; omega

/-- Entry `j` of window 7's block at point `t` sits at `pos t j` of its array. -/
theorem emb7 (t : Fin cfg0.N) (j : S128x4096.Idx) : ((cfg0.win 7).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_7.index t (0 : Fin 2) * 128 + 1 * (j 0).val = t.val * 128 + (j 0).val; omega
  | ⟨1, _⟩ => show win0_7.index t (1 : Fin 2) * 4096 + 1 * (j 1).val = (j 1).val; omega

/-- Entry `j` of window 8's block at point `t` sits at `pos t j` of its array. -/
theorem emb8 (t : Fin cfg0.N) (j : S128x4096.Idx) : ((cfg0.win 8).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_8.index t (0 : Fin 2) * 128 + 1 * (j 0).val = t.val * 128 + (j 0).val; omega
  | ⟨1, _⟩ => show win0_8.index t (1 : Fin 2) * 4096 + 1 * (j 1).val = (j 1).val; omega

/-- Entry `j` of window 9's block at point `t` sits at `pos t j` of its array. -/
theorem emb9 (t : Fin cfg0.N) (j : S128x4096.Idx) : ((cfg0.win 9).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_9.index t (0 : Fin 2) * 128 + 1 * (j 0).val = t.val * 128 + (j 0).val; omega
  | ⟨1, _⟩ => show win0_9.index t (1 : Fin 2) * 4096 + 1 * (j 1).val = (j 1).val; omega

/-- Entry `j` of window 10's block at point `t` sits at `pos t j` of its array. -/
theorem emb10 (t : Fin cfg0.N) (j : S128x4096.Idx) : ((cfg0.win 10).blk t).view.emb j = pos t j := by
  obtain ⟨r0, k0, r1, k1, r2, k2, r3, k3, r7, k7, r8, k8, r9, k9, r10, k10, k4, k5, k6⟩ := index_facts t
  funext a; apply Fin.ext
  match a with
  | ⟨0, _⟩ => show win0_10.index t (0 : Fin 2) * 128 + 1 * (j 0).val = t.val * 128 + (j 0).val; omega
  | ⟨1, _⟩ => show win0_10.index t (1 : Fin 2) * 4096 + 1 * (j 1).val = (j 1).val; omega

/-- Channel window 4 has one block, the whole vector: the column of a block entry is read at the channel of the
    entry's place in a matrix. -/
theorem emb4 (t : Fin cfg0.N) (j : S128x4096.Idx) : ((cfg0.win 4).blk t).view.emb (col j) = chan (pos t j) := by
  obtain ⟨r0, k0, r1, k1, r2, k2, r3, k3, r7, k7, r8, k8, r9, k9, r10, k10, k4, k5, k6⟩ := index_facts t
  funext a; apply Fin.ext
  match a with
  | ⟨0, _⟩ => show win0_4.index t (0 : Fin 1) * 4096 + 1 * (j 1).val = (j 1).val; omega

/-- Channel window 5 has one block, the whole vector: the column of a block entry is read at the channel of the
    entry's place in a matrix. -/
theorem emb5 (t : Fin cfg0.N) (j : S128x4096.Idx) : ((cfg0.win 5).blk t).view.emb (col j) = chan (pos t j) := by
  obtain ⟨r0, k0, r1, k1, r2, k2, r3, k3, r7, k7, r8, k8, r9, k9, r10, k10, k4, k5, k6⟩ := index_facts t
  funext a; apply Fin.ext
  match a with
  | ⟨0, _⟩ => show win0_5.index t (0 : Fin 1) * 4096 + 1 * (j 1).val = (j 1).val; omega

/-- Channel window 6 has one block, the whole vector: the column of a block entry is read at the channel of the
    entry's place in a matrix. -/
theorem emb6 (t : Fin cfg0.N) (j : S128x4096.Idx) : ((cfg0.win 6).blk t).view.emb (col j) = chan (pos t j) := by
  obtain ⟨r0, k0, r1, k1, r2, k2, r3, k3, r7, k7, r8, k8, r9, k9, r10, k10, k4, k5, k6⟩ := index_facts t
  funext a; apply Fin.ext
  match a with
  | ⟨0, _⟩ => show win0_6.index t (0 : Fin 1) * 4096 + 1 * (j 1).val = (j 1).val; omega

/-! ## Output window 7: the spikes -/

/-- What grid point `t` writes back is block `t` of the array of spikes computed from the arrays as the kernel
    finds them: each entry of the body's block reads its inputs where that entry sits in the arrays. -/
theorem spike_flushed (c : Dev nD) (t : Fin cfg0.N) :
    (dats m 0 c).flushed 7 t = ((cfg0.win 7).blk t).view.read (Elt Ideal) (spikeArr (F := Ideal) (V m c main_arg0) (V m c main_arg1) (V m c main_arg2) (V m c main_arg3) (V m c main_v0) (V m c main_v12) (V m c main_v13)) := by
  show (cfg0.win 7).cut (grid0.coords t) ((dats m 0 c).after 7 t) = _
  rw [after0_7]
  funext j
  refine (spike_block (iblk m c 0 t) (iblk m c 1 t) (iblk m c 2 t) (iblk m c 3 t) (iblk m c 4 t) (iblk m c 5 t) (iblk m c 6 t) j).trans ?_
  show spike (F := Ideal) (V m c main_arg0 (((cfg0.win 0).blk t).view.emb j)) (V m c main_arg1 (((cfg0.win 1).blk t).view.emb j)) (V m c main_arg2 (((cfg0.win 2).blk t).view.emb j)) (V m c main_arg3 (((cfg0.win 3).blk t).view.emb j)) (V m c main_v0 (((cfg0.win 4).blk t).view.emb (col j))) (V m c main_v12 (((cfg0.win 5).blk t).view.emb (col j))) (V m c main_v13 (((cfg0.win 6).blk t).view.emb (col j)))
    = (spikeArr (F := Ideal) (V m c main_arg0) (V m c main_arg1) (V m c main_arg2) (V m c main_arg3) (V m c main_v0) (V m c main_v12) (V m c main_v13)) (((cfg0.win 7).blk t).view.emb j)
  rw [emb0 t j, emb1 t j, emb2 t j, emb3 t j, emb4 t j, emb5 t j, emb6 t j, emb7 t j]
  rfl

/-- An index of the array is in point `t`'s block iff each coordinate is in the block's range on its axis. -/
theorem mem_block7 (t : Fin cfg0.N) (i : S4096x4096.Idx) :
    i ∈ ((cfg0.win 7).blk t).view.set ↔ ∀ a : Fin 2, win0_7.index t a * S128x4096.size a ≤ (i a).val ∧ (i a).val < win0_7.index t a * S128x4096.size a + S128x4096.size a := by
  show i ∈ ((View.whole main_v14_0).slice (win0_7.rect t)).set ↔ _
  rw [View.set_slice_whole, Rect.mem_set_unit]
  exact Iff.rfl

/-- The blocks tile the array: row `r` lies in the block of point `r / 128`. -/
theorem cover7 (i : S4096x4096.Idx) :
    ∃ t : Fin cfg0.N, (cfg0.win 7).flush t = true ∧ i ∈ ((cfg0.win 7).blk t).view.set := by
  have hi0 : (i 0).val < 4096 := (i 0).isLt
  have hi1 : (i 1).val < 4096 := (i 1).isLt
  have hN : cfg0.N = 32 := N_0
  let t : Fin cfg0.N := ⟨(i 0).val / 128, by omega⟩
  have ht : t.val = (i 0).val / 128 := rfl
  obtain ⟨r0, k0, r1, k1, r2, k2, r3, k3, r7, k7, r8, k8, r9, k9, r10, k10, k4, k5, k6⟩ := index_facts t
  refine ⟨t, flush0_7 t, ?_⟩
  rw [mem_block7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 4096 ≤ (i 1).val ∧ (i 1).val < win0_7.index t (1 : Fin 2) * 4096 + 4096; omega

/-- So after the run the whole array is the array of spikes. -/
theorem spike_final (c : Dev nD) : (dats m 0 c).arrAt 7 cfg0.N = spikeArr (F := Ideal) (V m c main_arg0) (V m c main_arg1) (V m c main_arg2) (V m c main_arg3) (V m c main_v0) (V m c main_v12) (V m c main_v13) :=
  (dats m 0 c).arrAt_eq_of_cover 7 _ (fun t _ => spike_flushed m c t) cover7

/-! ## Output window 8: the new potentials -/

/-- What grid point `t` writes back is block `t` of the array of new potentials computed from the arrays as the kernel
    finds them: each entry of the body's block reads its inputs where that entry sits in the arrays. -/
theorem potential_flushed (c : Dev nD) (t : Fin cfg0.N) :
    (dats m 0 c).flushed 8 t = ((cfg0.win 8).blk t).view.read (Elt Ideal) (potentialArr (F := Ideal) (V m c main_arg0) (V m c main_arg1) (V m c main_arg2) (V m c main_arg3) (V m c main_v0) (V m c main_v12)) := by
  show (cfg0.win 8).cut (grid0.coords t) ((dats m 0 c).after 8 t) = _
  rw [after0_8]
  funext j
  refine (potential_block (iblk m c 0 t) (iblk m c 1 t) (iblk m c 2 t) (iblk m c 3 t) (iblk m c 4 t) (iblk m c 5 t) (iblk m c 6 t) j).trans ?_
  show potential (F := Ideal) (V m c main_arg0 (((cfg0.win 0).blk t).view.emb j)) (V m c main_arg1 (((cfg0.win 1).blk t).view.emb j)) (V m c main_arg2 (((cfg0.win 2).blk t).view.emb j)) (V m c main_arg3 (((cfg0.win 3).blk t).view.emb j)) (V m c main_v0 (((cfg0.win 4).blk t).view.emb (col j))) (V m c main_v12 (((cfg0.win 5).blk t).view.emb (col j)))
    = (potentialArr (F := Ideal) (V m c main_arg0) (V m c main_arg1) (V m c main_arg2) (V m c main_arg3) (V m c main_v0) (V m c main_v12)) (((cfg0.win 8).blk t).view.emb j)
  rw [emb0 t j, emb1 t j, emb2 t j, emb3 t j, emb4 t j, emb5 t j, emb8 t j]
  rfl

/-- An index of the array is in point `t`'s block iff each coordinate is in the block's range on its axis. -/
theorem mem_block8 (t : Fin cfg0.N) (i : S4096x4096.Idx) :
    i ∈ ((cfg0.win 8).blk t).view.set ↔ ∀ a : Fin 2, win0_8.index t a * S128x4096.size a ≤ (i a).val ∧ (i a).val < win0_8.index t a * S128x4096.size a + S128x4096.size a := by
  show i ∈ ((View.whole main_v14_1).slice (win0_8.rect t)).set ↔ _
  rw [View.set_slice_whole, Rect.mem_set_unit]
  exact Iff.rfl

/-- The blocks tile the array: row `r` lies in the block of point `r / 128`. -/
theorem cover8 (i : S4096x4096.Idx) :
    ∃ t : Fin cfg0.N, (cfg0.win 8).flush t = true ∧ i ∈ ((cfg0.win 8).blk t).view.set := by
  have hi0 : (i 0).val < 4096 := (i 0).isLt
  have hi1 : (i 1).val < 4096 := (i 1).isLt
  have hN : cfg0.N = 32 := N_0
  let t : Fin cfg0.N := ⟨(i 0).val / 128, by omega⟩
  have ht : t.val = (i 0).val / 128 := rfl
  obtain ⟨r0, k0, r1, k1, r2, k2, r3, k3, r7, k7, r8, k8, r9, k9, r10, k10, k4, k5, k6⟩ := index_facts t
  refine ⟨t, flush0_8 t, ?_⟩
  rw [mem_block8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 4096 ≤ (i 1).val ∧ (i 1).val < win0_8.index t (1 : Fin 2) * 4096 + 4096; omega

/-- So after the run the whole array is the array of new potentials. -/
theorem potential_final (c : Dev nD) : (dats m 0 c).arrAt 8 cfg0.N = potentialArr (F := Ideal) (V m c main_arg0) (V m c main_arg1) (V m c main_arg2) (V m c main_arg3) (V m c main_v0) (V m c main_v12) :=
  (dats m 0 c).arrAt_eq_of_cover 8 _ (fun t _ => potential_flushed m c t) cover8

/-! ## Output window 9: the new oscillation values -/

/-- What grid point `t` writes back is block `t` of the array of new oscillation values computed from the arrays as the kernel
    finds them: each entry of the body's block reads its inputs where that entry sits in the arrays. -/
theorem oscillation_flushed (c : Dev nD) (t : Fin cfg0.N) :
    (dats m 0 c).flushed 9 t = ((cfg0.win 9).blk t).view.read (Elt Ideal) (oscillationArr (F := Ideal) (V m c main_arg1) (V m c main_arg2) (V m c main_arg3) (V m c main_v0) (V m c main_v12)) := by
  show (cfg0.win 9).cut (grid0.coords t) ((dats m 0 c).after 9 t) = _
  rw [after0_9]
  funext j
  refine (oscillation_block (iblk m c 0 t) (iblk m c 1 t) (iblk m c 2 t) (iblk m c 3 t) (iblk m c 4 t) (iblk m c 5 t) (iblk m c 6 t) j).trans ?_
  show oscillation (F := Ideal) (V m c main_arg1 (((cfg0.win 1).blk t).view.emb j)) (V m c main_arg2 (((cfg0.win 2).blk t).view.emb j)) (V m c main_arg3 (((cfg0.win 3).blk t).view.emb j)) (V m c main_v0 (((cfg0.win 4).blk t).view.emb (col j))) (V m c main_v12 (((cfg0.win 5).blk t).view.emb (col j)))
    = (oscillationArr (F := Ideal) (V m c main_arg1) (V m c main_arg2) (V m c main_arg3) (V m c main_v0) (V m c main_v12)) (((cfg0.win 9).blk t).view.emb j)
  rw [emb1 t j, emb2 t j, emb3 t j, emb4 t j, emb5 t j, emb9 t j]
  rfl

/-- An index of the array is in point `t`'s block iff each coordinate is in the block's range on its axis. -/
theorem mem_block9 (t : Fin cfg0.N) (i : S4096x4096.Idx) :
    i ∈ ((cfg0.win 9).blk t).view.set ↔ ∀ a : Fin 2, win0_9.index t a * S128x4096.size a ≤ (i a).val ∧ (i a).val < win0_9.index t a * S128x4096.size a + S128x4096.size a := by
  show i ∈ ((View.whole main_v14_2).slice (win0_9.rect t)).set ↔ _
  rw [View.set_slice_whole, Rect.mem_set_unit]
  exact Iff.rfl

/-- The blocks tile the array: row `r` lies in the block of point `r / 128`. -/
theorem cover9 (i : S4096x4096.Idx) :
    ∃ t : Fin cfg0.N, (cfg0.win 9).flush t = true ∧ i ∈ ((cfg0.win 9).blk t).view.set := by
  have hi0 : (i 0).val < 4096 := (i 0).isLt
  have hi1 : (i 1).val < 4096 := (i 1).isLt
  have hN : cfg0.N = 32 := N_0
  let t : Fin cfg0.N := ⟨(i 0).val / 128, by omega⟩
  have ht : t.val = (i 0).val / 128 := rfl
  obtain ⟨r0, k0, r1, k1, r2, k2, r3, k3, r7, k7, r8, k8, r9, k9, r10, k10, k4, k5, k6⟩ := index_facts t
  refine ⟨t, flush0_9 t, ?_⟩
  rw [mem_block9]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 4096 ≤ (i 1).val ∧ (i 1).val < win0_9.index t (1 : Fin 2) * 4096 + 4096; omega

/-- So after the run the whole array is the array of new oscillation values. -/
theorem oscillation_final (c : Dev nD) : (dats m 0 c).arrAt 9 cfg0.N = oscillationArr (F := Ideal) (V m c main_arg1) (V m c main_arg2) (V m c main_arg3) (V m c main_v0) (V m c main_v12) :=
  (dats m 0 c).arrAt_eq_of_cover 9 _ (fun t _ => oscillation_flushed m c t) cover9

/-! ## Output window 10: the new refractory values -/

/-- What grid point `t` writes back is block `t` of the array of new refractory values computed from the arrays as the kernel
    finds them: each entry of the body's block reads its inputs where that entry sits in the arrays. -/
theorem refractory_flushed (c : Dev nD) (t : Fin cfg0.N) :
    (dats m 0 c).flushed 10 t = ((cfg0.win 10).blk t).view.read (Elt Ideal) (refractoryArr (F := Ideal) (V m c main_arg0) (V m c main_arg1) (V m c main_arg2) (V m c main_arg3) (V m c main_v0) (V m c main_v12) (V m c main_v13)) := by
  show (cfg0.win 10).cut (grid0.coords t) ((dats m 0 c).after 10 t) = _
  rw [after0_10]
  funext j
  refine (refractory_block (iblk m c 0 t) (iblk m c 1 t) (iblk m c 2 t) (iblk m c 3 t) (iblk m c 4 t) (iblk m c 5 t) (iblk m c 6 t) j).trans ?_
  show refractory (F := Ideal) (V m c main_arg0 (((cfg0.win 0).blk t).view.emb j)) (V m c main_arg1 (((cfg0.win 1).blk t).view.emb j)) (V m c main_arg2 (((cfg0.win 2).blk t).view.emb j)) (V m c main_arg3 (((cfg0.win 3).blk t).view.emb j)) (V m c main_v0 (((cfg0.win 4).blk t).view.emb (col j))) (V m c main_v12 (((cfg0.win 5).blk t).view.emb (col j))) (V m c main_v13 (((cfg0.win 6).blk t).view.emb (col j)))
    = (refractoryArr (F := Ideal) (V m c main_arg0) (V m c main_arg1) (V m c main_arg2) (V m c main_arg3) (V m c main_v0) (V m c main_v12) (V m c main_v13)) (((cfg0.win 10).blk t).view.emb j)
  rw [emb0 t j, emb1 t j, emb2 t j, emb3 t j, emb4 t j, emb5 t j, emb6 t j, emb10 t j]
  rfl

/-- An index of the array is in point `t`'s block iff each coordinate is in the block's range on its axis. -/
theorem mem_block10 (t : Fin cfg0.N) (i : S4096x4096.Idx) :
    i ∈ ((cfg0.win 10).blk t).view.set ↔ ∀ a : Fin 2, win0_10.index t a * S128x4096.size a ≤ (i a).val ∧ (i a).val < win0_10.index t a * S128x4096.size a + S128x4096.size a := by
  show i ∈ ((View.whole main_v14_3).slice (win0_10.rect t)).set ↔ _
  rw [View.set_slice_whole, Rect.mem_set_unit]
  exact Iff.rfl

/-- The blocks tile the array: row `r` lies in the block of point `r / 128`. -/
theorem cover10 (i : S4096x4096.Idx) :
    ∃ t : Fin cfg0.N, (cfg0.win 10).flush t = true ∧ i ∈ ((cfg0.win 10).blk t).view.set := by
  have hi0 : (i 0).val < 4096 := (i 0).isLt
  have hi1 : (i 1).val < 4096 := (i 1).isLt
  have hN : cfg0.N = 32 := N_0
  let t : Fin cfg0.N := ⟨(i 0).val / 128, by omega⟩
  have ht : t.val = (i 0).val / 128 := rfl
  obtain ⟨r0, k0, r1, k1, r2, k2, r3, k3, r7, k7, r8, k8, r9, k9, r10, k10, k4, k5, k6⟩ := index_facts t
  refine ⟨t, flush0_10 t, ?_⟩
  rw [mem_block10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 4096 ≤ (i 1).val ∧ (i 1).val < win0_10.index t (1 : Fin 2) * 4096 + 4096; omega

/-- So after the run the whole array is the array of new refractory values. -/
theorem refractory_final (c : Dev nD) : (dats m 0 c).arrAt 10 cfg0.N = refractoryArr (F := Ideal) (V m c main_arg0) (V m c main_arg1) (V m c main_arg2) (V m c main_arg3) (V m c main_v0) (V m c main_v12) (V m c main_v13) :=
  (dats m 0 c).arrAt_eq_of_cover 10 _ (fun t _ => refractory_flushed m c t) cover10

end Cert.KernelIdeal.Arrays

end
-- ==== Proof.RefValue.lean ====
/-
  The reference's four results are the step of `Cert.Resonator`, entry by entry.

  The reference first computes three channel vectors on its own — the frequency `|ω|`, the damping
  `(−1 + sqrt(1 − (dt·|ω|)²)) / dt − |b|` and the threshold `|θ|` (its stages 0, 12 and 40) — and then spreads each
  over the 4096 rows (first as a one-row matrix, then down the rows) and works entry by entry on whole matrices.
  Read at an entry, each spread vector is the vector at the entry's channel, and what remains is the same sums and
  products, grouped the same way, as the specification's. Nothing here opens the three channel vectors: they stay
  the stages themselves. Everything holds over any float instance.
-/
import proofs.«170079_j14121852470206_2_alg».proof.Proof.Gen.ReferenceIdeal.Read
import proofs.«170079_j14121852470206_2_alg».proof.Proof.Dynamics

noncomputable section

namespace Cert.ReferenceIdeal.Stages

open Cert.ReferenceIdeal Cert.ReferenceIdeal.Read Cert.Resonator
open Idealize.ShloMosaic

variable {F : FTy → Type} [FloatOps F]

/-! ## A channel vector spread over the rows, read at an entry -/

/-- The damping, spread in two steps (stages 13, 14), is read at the entry's channel. -/
theorem chan_damping (i : S4096x4096.Idx) : idx_main_v13 (idx_main_v14 i) = chan i :=
  funext fun a => match a with | ⟨0, _⟩ => rfl

/-- The frequency as spread for the new potential (stages 20, 21). -/
theorem chan_frequency (i : S4096x4096.Idx) : idx_main_v20 (idx_main_v21 i) = chan i :=
  funext fun a => match a with | ⟨0, _⟩ => rfl

/-- The frequency as spread for the new oscillation value (stages 29, 30). -/
theorem chan_frequency' (i : S4096x4096.Idx) : idx_main_v29 (idx_main_v30 i) = chan i :=
  funext fun a => match a with | ⟨0, _⟩ => rfl

/-- The threshold, spread (stages 41, 42). -/
theorem chan_threshold (i : S4096x4096.Idx) : idx_main_v41 (idx_main_v42 i) = chan i :=
  funext fun a => match a with | ⟨0, _⟩ => rfl

/-! ## The four results -/

/-- Stage 28, the reference's second result, is the array of new potentials. -/
theorem potential_eq (x0 x1 x2 x3 : (⟨S4096x4096, .f32⟩ : BufTy).Contents (Elt F))
    (x4 x5 : (⟨S4096, .f32⟩ : BufTy).Contents (Elt F)) :
    val_main_v28 (F := F) x0 x1 x2 x3 x4 x5
      = potentialArr x0 x1 x2 x3 (val_main_v0 (F := F) x4) (val_main_v12 (F := F) x4 x5) := by
  funext i
  rw [val_main_v28_apply, val_main_v25_apply, val_main_v19_apply, val_main_v18_apply, val_main_v16_apply,
    val_main_v15_apply, val_main_v14_apply, val_main_v13_apply, val_main_v17_apply, val_main_cst_3_apply,
    val_main_v24_apply, val_main_v22_apply, val_main_v21_apply, val_main_v20_apply, val_main_v23_apply,
    val_main_cst_4_apply, val_main_v27_apply, val_main_v26_apply, val_main_cst_5_apply,
    chan_damping, chan_frequency]
  rfl

/-- Stage 38, the reference's third result, is the array of new oscillation values. -/
theorem oscillation_eq (x1 x2 x3 : (⟨S4096x4096, .f32⟩ : BufTy).Contents (Elt F))
    (x4 x5 : (⟨S4096, .f32⟩ : BufTy).Contents (Elt F)) :
    val_main_v38 (F := F) x1 x2 x3 x4 x5
      = oscillationArr x1 x2 x3 (val_main_v0 (F := F) x4) (val_main_v12 (F := F) x4 x5) := by
  funext i
  rw [val_main_v38_apply, val_main_v34_apply, val_main_v33_apply, val_main_v31_apply, val_main_v30_apply,
    val_main_v29_apply, val_main_v32_apply, val_main_cst_6_apply, val_main_v37_apply, val_main_v35_apply,
    val_main_v15_apply, val_main_v14_apply, val_main_v13_apply, val_main_v36_apply, val_main_cst_7_apply,
    chan_damping, chan_frequency']
  rfl

/-- Stage 47, the reference's first result, is the array of spikes. -/
theorem spike_eq (x0 x1 x2 x3 : (⟨S4096x4096, .f32⟩ : BufTy).Contents (Elt F))
    (x4 x5 x6 : (⟨S4096, .f32⟩ : BufTy).Contents (Elt F)) :
    val_main_v47 (F := F) x0 x1 x2 x3 x4 x5 x6
      = spikeArr x0 x1 x2 x3 (val_main_v0 (F := F) x4) (val_main_v12 (F := F) x4 x5) (val_main_v40 (F := F) x6) := by
  funext i
  rw [val_main_v47_apply, val_main_v46_apply, val_main_v44_apply, val_main_v43_apply, val_main_v39_apply,
    congrFun (potential_eq x0 x1 x2 x3 x4 x5) i, val_main_v42_apply, val_main_v41_apply, val_main_v45_apply,
    val_main_cst_8_apply, chan_threshold]
  rfl

/-- Stage 50, the reference's fourth result, is the array of new refractory values. -/
theorem refractory_eq (x0 x1 x2 x3 : (⟨S4096x4096, .f32⟩ : BufTy).Contents (Elt F))
    (x4 x5 x6 : (⟨S4096, .f32⟩ : BufTy).Contents (Elt F)) :
    val_main_v50 (F := F) x0 x1 x2 x3 x4 x5 x6
      = refractoryArr x0 x1 x2 x3 (val_main_v0 (F := F) x4) (val_main_v12 (F := F) x4 x5) (val_main_v40 (F := F) x6) := by
  funext i
  rw [val_main_v50_apply, val_main_v49_apply, val_main_v48_apply, val_main_cst_9_apply,
    congrFun (spike_eq x0 x1 x2 x3 x4 x5 x6) i]
  rfl

end Cert.ReferenceIdeal.Stages

end
-- ==== Proof.lean ====
/-
  The kernel and its reference compute one step of a layer of resonate-and-fire neurons (Proof/Dynamics.lean):
  from the matrices `x`, `u`, `v`, `q` (4096 samples by 4096 channels) and the channel vectors `ω`, `b`, `θ`,

      ω̄ = |ω|,   p = (−1 + sqrt(1 − (dt·ω̄)²)) / dt − |b|,   θ̄ = |θ|            (one value per channel)
      u' = ((u + ((p − q)·u)·dt) − (ω̄·v)·dt) + x·dt
      v' = (v + (ω̄·u)·dt) + ((p − q)·v)·dt
      z  = 1 if (|u'| − θ̄) − q > 0, else 0
      q' = q·decay + z                                                             (entry by entry)

  and return `z`, `u'`, `v'`, `q'`.

  Both programs compute the three channel vectors `ω̄`, `p`, `θ̄` with the SAME host operations, in the same order, on
  the same binary constants; the proof never opens them: on each side they are the same three functions of `ω`, `b`,
  `θ` (the reference's stages 0, 12 and 40), and the kernel's program is shown to hand exactly these to its kernel.

  The entrywise part is where the programs differ in form. The reference spreads each channel vector over all 4096
  rows and works on whole matrices (Proof/RefValue.lean). The kernel walks 32 blocks of 128 rows; in each it spreads
  the channel vectors over the block's rows and applies the same sums and products, grouped the same way, to the
  block (Proof/BodyValue.lean), and the 32 blocks tile each result (Proof/Blocks.lean). At every entry the two
  programs therefore evaluate the same expression of the same inputs, and no law of arithmetic is needed to join
  them — in particular nothing depends on the inputs being finite. Two spellings do differ, in `z`: the kernel takes
  its own absolute value and widens the firing bit to 32 bits before reading it as a signed integer, where the
  reference takes the host's absolute value and reads the bit as an unsigned integer; on the extended reals these
  are the same number (Proof/Dynamics.lean).

  The idealization rewrote nothing in this kernel, so the kernel's idealization is its own text read on the extended
  reals and that claim is `True`. The three frame claims are the generated frame proofs of the two kernel programs
  and the reference's generated run with the results dropped.
-/
import proofs.«170079_j14121852470206_2_alg».proof.Defs
import proofs.«170079_j14121852470206_2_alg».proof.Proof.Gen.Kernel
import proofs.«170079_j14121852470206_2_alg».proof.Proof.Gen.Kernel.Frame
import proofs.«170079_j14121852470206_2_alg».proof.Proof.Gen.KernelIdeal
import proofs.«170079_j14121852470206_2_alg».proof.Proof.Gen.KernelIdeal.Frame
import proofs.«170079_j14121852470206_2_alg».proof.Proof.Gen.ReferenceIdeal
import proofs.«170079_j14121852470206_2_alg».proof.Proof.Gen.Pre_finite_inputs
import proofs.«170079_j14121852470206_2_alg».proof.Proof.Gen.ReferenceIdeal.Run
import proofs.«170079_j14121852470206_2_alg».proof.Proof.Gen.ReferenceIdeal.Read
import proofs.«170079_j14121852470206_2_alg».proof.Proof.Blocks
import proofs.«170079_j14121852470206_2_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo
open Cert.Resonator

/-! ## The step's arrays depend only on their arguments -/

section Congruence

variable {F : FTy → Type} [FloatOps F]
variable {x x' u u' v v' q q' : Mat.Idx → Elt F .f32} {ω ω' p p' θ θ' : Chan.Idx → Elt F .f32}

theorem spikeArr_eq (hx : x = x') (hu : u = u') (hv : v = v') (hq : q = q') (hω : ω = ω') (hp : p = p') (hθ : θ = θ') :
    spikeArr x u v q ω p θ = spikeArr x' u' v' q' ω' p' θ' := by
  subst hx hu hv hq hω hp hθ; rfl

theorem potentialArr_eq (hx : x = x') (hu : u = u') (hv : v = v') (hq : q = q') (hω : ω = ω') (hp : p = p') :
    potentialArr x u v q ω p = potentialArr x' u' v' q' ω' p' := by
  subst hx hu hv hq hω hp; rfl

theorem oscillationArr_eq (hu : u = u') (hv : v = v') (hq : q = q') (hω : ω = ω') (hp : p = p') :
    oscillationArr u v q ω p = oscillationArr u' v' q' ω' p' := by
  subst hu hv hq hω hp; rfl

theorem refractoryArr_eq (hx : x = x') (hu : u = u') (hv : v = v') (hq : q = q') (hω : ω = ω') (hp : p = p') (hθ : θ = θ') :
    refractoryArr x u v q ω p θ = refractoryArr x' u' v' q' ω' p' θ' := by
  subst hx hu hv hq hω hp hθ; rfl

end Congruence

/-! ## The channel vectors the kernel's program hands its kernel -/

section Kernel

open Cert.KernelIdeal Cert.KernelIdeal.Gen Cert.KernelIdeal.Arrays

variable {F : FTy → Type} [FloatOps F]

/-- When the kernel is entered, its frequency vector is the reference's stage 0 of the argument `ω`: `|ω|`. -/
theorem frequency_found (m : (ℓ : Loc nD τ sig) → Buf (Elt F) ℓ) (c : Dev nD) :
    (V m c main_v0 : S4096.Idx → Elt F .f32)
      = Cert.ReferenceIdeal.Read.val_main_v0 (F := F) (m ((c : Thread nD τ).loc main_arg4)) := by
  dsimp only [Gen.V, Gen.hostOps0]; after_results; rfl

/-- Its damping vector is the reference's stage 12 of the arguments `ω` and `b`: the same host operations in the same order. -/
theorem damping_found (m : (ℓ : Loc nD τ sig) → Buf (Elt F) ℓ) (c : Dev nD) :
    (V m c main_v12 : S4096.Idx → Elt F .f32)
      = Cert.ReferenceIdeal.Read.val_main_v12 (F := F) (m ((c : Thread nD τ).loc main_arg4))
          (m ((c : Thread nD τ).loc main_arg5)) := by
  dsimp only [Gen.V, Gen.hostOps0]; after_results; rfl

/-- Its threshold vector is the reference's stage 40 of the argument `θ`: `|θ|`. -/
theorem threshold_found (m : (ℓ : Loc nD τ sig) → Buf (Elt F) ℓ) (c : Dev nD) :
    (V m c main_v13 : S4096.Idx → Elt F .f32)
      = Cert.ReferenceIdeal.Read.val_main_v40 (F := F) (m ((c : Thread nD τ).loc main_arg6)) := by
  dsimp only [Gen.V, Gen.hostOps0]; after_results; rfl

/-! ## The kernel's run -/

/-- Every weakly fair execution of the kernel's program on the extended reals ends with its four results at the
    step's four arrays of the arguments as launched (the channel vectors through the reference's stages 0, 12, 40),
    and with the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v14_0) = spikeArr (F := Ideal) (m ((c : Thread nD τ).loc main_arg0)) (m ((c : Thread nD τ).loc main_arg1)) (m ((c : Thread nD τ).loc main_arg2)) (m ((c : Thread nD τ).loc main_arg3)) (Cert.ReferenceIdeal.Read.val_main_v0 (F := Ideal) (m ((c : Thread nD τ).loc main_arg4))) (Cert.ReferenceIdeal.Read.val_main_v12 (F := Ideal) (m ((c : Thread nD τ).loc main_arg4)) (m ((c : Thread nD τ).loc main_arg5))) (Cert.ReferenceIdeal.Read.val_main_v40 (F := Ideal) (m ((c : Thread nD τ).loc main_arg6)))
      ∧ r.2.mem ((c : Thread nD τ).loc main_v14_1) = potentialArr (F := Ideal) (m ((c : Thread nD τ).loc main_arg0)) (m ((c : Thread nD τ).loc main_arg1)) (m ((c : Thread nD τ).loc main_arg2)) (m ((c : Thread nD τ).loc main_arg3)) (Cert.ReferenceIdeal.Read.val_main_v0 (F := Ideal) (m ((c : Thread nD τ).loc main_arg4))) (Cert.ReferenceIdeal.Read.val_main_v12 (F := Ideal) (m ((c : Thread nD τ).loc main_arg4)) (m ((c : Thread nD τ).loc main_arg5)))
      ∧ r.2.mem ((c : Thread nD τ).loc main_v14_2) = oscillationArr (F := Ideal) (m ((c : Thread nD τ).loc main_arg1)) (m ((c : Thread nD τ).loc main_arg2)) (m ((c : Thread nD τ).loc main_arg3)) (Cert.ReferenceIdeal.Read.val_main_v0 (F := Ideal) (m ((c : Thread nD τ).loc main_arg4))) (Cert.ReferenceIdeal.Read.val_main_v12 (F := Ideal) (m ((c : Thread nD τ).loc main_arg4)) (m ((c : Thread nD τ).loc main_arg5)))
      ∧ r.2.mem ((c : Thread nD τ).loc main_v14_3) = refractoryArr (F := Ideal) (m ((c : Thread nD τ).loc main_arg0)) (m ((c : Thread nD τ).loc main_arg1)) (m ((c : Thread nD τ).loc main_arg2)) (m ((c : Thread nD τ).loc main_arg3)) (Cert.ReferenceIdeal.Read.val_main_v0 (F := Ideal) (m ((c : Thread nD τ).loc main_arg4))) (Cert.ReferenceIdeal.Read.val_main_v12 (F := Ideal) (m ((c : Thread nD τ).loc main_arg4)) (m ((c : Thread nD τ).loc main_arg5))) (Cert.ReferenceIdeal.Read.val_main_v40 (F := Ideal) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).1 7).trans ((spike_final m c).trans (spikeArr_eq (V_main_arg0 m c) (V_main_arg1 m c) (V_main_arg2 m c) (V_main_arg3 m c) (frequency_found m c) (damping_found m c) (threshold_found m c))),
      ((h c).1 8).trans ((potential_final m c).trans (potentialArr_eq (V_main_arg0 m c) (V_main_arg1 m c) (V_main_arg2 m c) (V_main_arg3 m c) (frequency_found m c) (damping_found m c))),
      ((h c).1 9).trans ((oscillation_final m c).trans (oscillationArr_eq (V_main_arg1 m c) (V_main_arg2 m c) (V_main_arg3 m c) (frequency_found m c) (damping_found m c))),
      ((h c).1 10).trans ((refractory_final m c).trans (refractoryArr_eq (V_main_arg0 m c) (V_main_arg1 m c) (V_main_arg2 m c) (V_main_arg3 m c) (frequency_found m c) (damping_found m c) (threshold_found m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Kernel

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference's run, with its results dropped. -/
theorem frame_reference_ideal : Cert.frame_ReferenceIdeal := fun m ρ _ =>
  (θ_run Cert.ReferenceIdeal.defs _ _).mono (fun _ h c => (h c).2.2.2.2)
    (Cert.ReferenceIdeal.Value.run (F := Ideal) m ρ)

/-- The idealization rewrote no operation of this kernel. -/
theorem preserves : Cert.preserves_Kernel_KernelIdeal := trivial

/-- From memories agreeing on the seven arguments, the kernel's program ends with the step's four arrays
    (`kernel_run`) and the reference ends with its stages 47, 28, 38, 50, which are the same four arrays
    (Proof/RefValue.lean) of arguments that agree. -/
theorem algebraic : Cert.algebraic_KernelIdeal_ReferenceIdeal := by
  intro m ρ m' ρ' _ hagree
  refine ⟨_, _, _, _, kernel_run m ρ, ?_⟩
  refine (θ_run Cert.ReferenceIdeal.defs _ _).mono (fun _ h c => ?_)
    (Cert.ReferenceIdeal.Value.run (F := Ideal) m' ρ')
  obtain ⟨a0, a1, a2, a3, a4, a5, a6⟩ := hagree c
  obtain ⟨h47, h28, h38, h50, kept⟩ := h c
  refine ⟨?_, ?_, ?_, ?_, kept⟩
  · refine h47.trans ((Cert.ReferenceIdeal.Read.val_main_v47_eq _ _ _ _ _ _ _).trans
      ((Cert.ReferenceIdeal.Stages.spike_eq _ _ _ _ _ _ _).trans ?_))
    rw [a0, a1, a2, a3, a4, a5, a6]
  · refine h28.trans ((Cert.ReferenceIdeal.Read.val_main_v28_eq _ _ _ _ _ _).trans
      ((Cert.ReferenceIdeal.Stages.potential_eq _ _ _ _ _ _).trans ?_))
    rw [a0, a1, a2, a3, a4, a5]
  · refine h38.trans ((Cert.ReferenceIdeal.Read.val_main_v38_eq _ _ _ _ _).trans
      ((Cert.ReferenceIdeal.Stages.oscillation_eq _ _ _ _ _).trans ?_))
    rw [a1, a2, a3, a4, a5]
  · refine h50.trans ((Cert.ReferenceIdeal.Read.val_main_v50_eq _ _ _ _ _ _ _).trans
      ((Cert.ReferenceIdeal.Stages.refractory_eq _ _ _ _ _ _ _).trans ?_))
    rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
